-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048x2x2 : Shape := ⟨4, ![8192, 2048, 2, 2]⟩
abbrev S2048 : Shape := ⟨1, ![2048]⟩
abbrev S128x2048 : Shape := ⟨2, ![128, 2048]⟩
abbrev S128 : Shape := ⟨1, ![128]⟩
abbrev S2048x128 : Shape := ⟨2, ![2048, 128]⟩
abbrev S_ : Shape := ⟨0, ![]⟩

class Facts : Prop where
  bcast_S_S8192x2048x2x2 : S_.BroadcastsInDim S8192x2048x2x2 (![] : Fin 0 → Fin S8192x2048x2x2.rank)
  reducesTo_S8192x2048x2x2_S_d0_1_2_3 : S8192x2048x2x2.ReducesTo [0, 1, 2, 3] S_
  h_S_ : 0 < S_.numel
  bcast_S_S2048 : S_.BroadcastsInDim S2048 (![] : Fin 0 → Fin S2048.rank)
  reducesTo_S2048_S_d0 : S2048.ReducesTo [0] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S2048x128 : S_.BroadcastsInDim S2048x128 (![] : Fin 0 → Fin S2048x128.rank)
  reducesTo_S2048x128_S_d0_1 : S2048x128.ReducesTo [0, 1] S_

variable [Facts]

def fn_part2 {F : FTy → Type} [FloatOps F] (main_arg7 : FVec F S2048x128 .f32) (main_arg8 : FVec F S2048 .f32) (main_v33 : IVec S_ 1) : IVec S_ 1 :=
  let main_v34 : FVec F S2048x128 .f32 := Host.absf main_arg7
  let main_cst_12 : FVec F S_ .f32 := constant S_ .f32 0x7F800000#32
  let main_v35 : FVec F S2048x128 .f32 := broadcastInDim S2048x128 ![] bcast_S_S2048x128 main_cst_12
  let main_v36 : IVec S2048x128 1 := cmpf .olt main_v34 main_v35
  let main_c_13 : IVec S_ 1 := constantI S_ 1 1#1
  let main_v37 : IVec S_ 1 := (fun x v => Host.reduce IntOp.andi x v reducesTo_S2048x128_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  main_v43

def fn_part1 {F : FTy → Type} [FloatOps F] (main_arg4 : FVec F S2048 .f32) (main_arg5 : FVec F S128x2048 .f32) (main_arg6 : FVec F S128 .f32) (main_arg7 : FVec F S2048x128 .f32) (main_arg8 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S128x2048 .f32 := Host.absf main_arg5
  let main_cst_8 : FVec F S_ .f32 := constant S_ .f32 0x7F800000#32
  let main_v25 : FVec F S128x2048 .f32 := broadcastInDim S128x2048 ![] bcast_S_S128x2048 main_cst_8
  let main_v26 : IVec S128x2048 1 := cmpf .olt main_v24 main_v25
  let main_c_9 : IVec S_ 1 := constantI S_ 1 1#1
  let main_v27 : IVec S_ 1 := (fun x v => Host.reduce IntOp.andi x v reducesTo_S128x2048_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S8192x2048x2x2 .f32) (main_arg1 : FVec F S2048 .f32) (main_arg2 : FVec F S2048 .f32) (main_arg3 : FVec F S2048 .f32) (main_arg4 : FVec F S2048 .f32) (main_arg5 : FVec F S128x2048 .f32) (main_arg6 : FVec F S128 .f32) (main_arg7 : FVec F S2048x128 .f32) (main_arg8 : FVec F S2048 .f32) : IVec S_ 1 :=
  let main_v0 : FVec F S8192x2048x2x2 .f32 := Host.absf main_arg0
  let main_cst : FVec F S_ .f32 := constant S_ .f32 0x7F800000#32
  let main_v1 : FVec F S8192x2048x2x2 .f32 := broadcastInDim S8192x2048x2x2 ![] bcast_S_S8192x2048x2x2 main_cst
  let main_v2 : IVec S8192x2048x2x2 1 := cmpf .olt main_v0 main_v1
  let main_c : IVec S_ 1 := constantI S_ 1 1#1
  let main_v3 : IVec S_ 1 := (fun x v => Host.reduce IntOp.andi x v reducesTo_S8192x2048x2x2_S_d0_1_2_3 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_v13 main_v16
-- ==== Kernel.lean ====
abbrev S8192x2048x2x2 : Shape := ⟨4, ![8192, 2048, 2, 2]⟩
abbrev S2048 : Shape := ⟨1, ![2048]⟩
abbrev S128x2048 : Shape := ⟨2, ![128, 2048]⟩
abbrev S128 : Shape := ⟨1, ![128]⟩
abbrev S2048x128 : Shape := ⟨2, ![2048, 128]⟩
abbrev S_ : Shape := ⟨0, ![]⟩
abbrev S2048x4 : Shape := ⟨2, ![2048, 4]⟩
abbrev S8192 : Shape := ⟨1, ![8192]⟩
abbrev S1x8192 : Shape := ⟨2, ![1, 8192]⟩
abbrev S2048x4x128 : Shape := ⟨3, ![2048, 4, 128]⟩
abbrev S8192x128 : Shape := ⟨2, ![8192, 128]⟩
abbrev S128x2048x4 : Shape := ⟨3, ![128, 2048, 4]⟩
abbrev S128x8192 : Shape := ⟨2, ![128, 8192]⟩
abbrev S1x128 : Shape := ⟨2, ![1, 128]⟩
abbrev S8192x8192 : Shape := ⟨2, ![8192, 8192]⟩
abbrev S128x128 : Shape := ⟨2, ![128, 128]⟩

abbrev nBuf : Space → Nat
  | .hbm => 42
  | .vmem => 10
  | .smem => 0
  | _ => 0

abbrev bufTy : (tb : Table) → Fin (tcTables nBuf tb) → BufTy
  | .hbm, ⟨0, _⟩ => ⟨S8192x2048x2x2, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S128x2048, .f32⟩
  | .hbm, ⟨6, _⟩ => ⟨S128, .f32⟩
  | .hbm, ⟨7, _⟩ => ⟨S2048x128, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048x4, .f32⟩
  | .hbm, ⟨17, _⟩ => ⟨S8192, .f32⟩
  | .hbm, ⟨18, _⟩ => ⟨S1x8192, .f32⟩
  | .hbm, ⟨19, _⟩ => ⟨S1x8192, .bf16⟩
  | .hbm, ⟨20, _⟩ => ⟨S2048x4, .f32⟩
  | .hbm, ⟨21, _⟩ => ⟨S8192, .f32⟩
  | .hbm, ⟨22, _⟩ => ⟨S1x8192, .f32⟩
  | .hbm, ⟨23, _⟩ => ⟨S1x8192, .bf16⟩
  | .hbm, ⟨24, _⟩ => ⟨S2048x128, .f32⟩
  | .hbm, ⟨25, _⟩ => ⟨S2048x4x128, .f32⟩
  | .hbm, ⟨26, _⟩ => ⟨S8192x128, .f32⟩
  | .hbm, ⟨27, _⟩ => ⟨S_, .f32⟩
  | .hbm, ⟨28, _⟩ => ⟨S8192x128, .f32⟩
  | .hbm, ⟨29, _⟩ => ⟨S8192x128, .f32⟩
  | .hbm, ⟨30, _⟩ => ⟨S8192x128, .bf16⟩
  | .hbm, ⟨31, _⟩ => ⟨S128x2048, .f32⟩
  | .hbm, ⟨32, _⟩ => ⟨S128x2048x4, .f32⟩
  | .hbm, ⟨33, _⟩ => ⟨S128x8192, .f32⟩
  | .hbm, ⟨34, _⟩ => ⟨S128x8192, .bf16⟩
  | .hbm, ⟨35, _⟩ => ⟨S1x128, .f32⟩
  | .hbm, ⟨36, _⟩ => ⟨S2048x4, .f32⟩
  | .hbm, ⟨37, _⟩ => ⟨S8192, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S8192x2048x2x2, .f32⟩
  | .local _ .vmem, ⟨0, _⟩ => ⟨S128x8192, .f32⟩
  | .local _ .vmem, ⟨1, _⟩ => ⟨S128x8192, .f32⟩
  | .local _ .vmem, ⟨2, _⟩ => ⟨S1x8192, .bf16⟩
  | .local _ .vmem, ⟨3, _⟩ => ⟨S1x8192, .bf16⟩
  | .local _ .vmem, ⟨4, _⟩ => ⟨S8192x128, .bf16⟩
  | .local _ .vmem, ⟨5, _⟩ => ⟨S1x128, .f32⟩
  | .local _ .vmem, ⟨6, _⟩ => ⟨S128x8192, .bf16⟩
  | .local _ .vmem, ⟨7, _⟩ => ⟨S1x8192, .f32⟩
  | .local _ .vmem, ⟨8, _⟩ => ⟨S128x8192, .f32⟩
  | .local _ .vmem, ⟨9, _⟩ => ⟨S128x8192, .f32⟩
  | _, _ => ⟨S8192x2048x2x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S2048 : S_.BroadcastsInDim S2048 (![] : Fin 0 → Fin S2048.rank)
  bcast_S2048_S2048x4_0 : S2048.BroadcastsInDim S2048x4 (![0] : Fin 1 → Fin S2048x4.rank)
  shapeCasts_S2048x4_S8192 : S2048x4.ShapeCasts S8192
  bcast_S8192_S1x8192_1 : S8192.BroadcastsInDim S1x8192 (![1] : Fin 1 → Fin S1x8192.rank)
  bitsLt_bf16_f32 : FTy.bits .bf16 < FTy.bits .f32
  transposes_S128x2048_S2048x128_1_0 : S128x2048.Transposes [1, 0] S2048x128
  bcast_S2048x128_S2048x4x128_0_2 : S2048x128.BroadcastsInDim S2048x4x128 (![0, 2] : Fin 2 → Fin S2048x4x128.rank)
  shapeCasts_S2048x4x128_S8192x128 : S2048x4x128.ShapeCasts S8192x128
  bcast_S_S8192x128 : S_.BroadcastsInDim S8192x128 (![] : Fin 0 → Fin S8192x128.rank)
  transposes_S2048x128_S128x2048_1_0 : S2048x128.Transposes [1, 0] S128x2048
  bcast_S128x2048_S128x2048x4_0_1 : S128x2048.BroadcastsInDim S128x2048x4 (![0, 1] : Fin 2 → Fin S128x2048x4.rank)
  shapeCasts_S128x2048x4_S128x8192 : S128x2048x4.ShapeCasts S128x8192
  bcast_S128_S1x128_1 : S128.BroadcastsInDim S1x128 (![1] : Fin 1 → Fin S1x128.rank)
  shapeCasts_S8192x2048x2x2_S8192x8192 : S8192x2048x2x2.ShapeCasts S8192x8192
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  shapeCasts_S8192x8192_S8192x2048x2x2 : S8192x8192.ShapeCasts S8192x2048x2x2
  dot_S128x8192_S8192x128_S128x128_1_0_0_1_n_n_wf : DotDims.WF S128x8192 S8192x128 S128x128 [1] [0] [0] [1] [] []
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .bf16 = 32 ∨ (Rect.block (s := S1x8192) S1x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .bf16 = 32 ∨ (Rect.block (s := S1x8192) S1x8192.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .bf16 = 32 ∨ (Rect.block (s := S8192x128) S8192x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x8192.size a ≤ S128x8192.size a
  hwx0_5 : ∀ i : grid0.Coords, EltTy.bits .bf16 = 32 ∨ (Rect.block (s := S128x8192) S128x8192.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8192.size a ≤ S1x8192.size a
  hwx0_6 : ∀ i : grid0.Coords, EltTy.bits .f32 = 32 ∨ (Rect.block (s := S1x8192) S1x8192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x8192.size a ≤ S8192x8192.size a
  hwx0_7 : ∀ i : grid0.Coords, EltTy.bits .f32 = 32 ∨ (Rect.block (s := S8192x8192) S128x8192.size (cc0_transform_7 i) (hinb0_7 i)).WholeWords (EltTy.packing .f32)

variable [Facts₀]

def dot_S128x8192_S8192x128_S128x128_1_0_0_1_n_n : DotDims S128x8192 S8192x128 S128x128 where
  lhsContracting := [1]
  rhsContracting := [0]
  lhsNonContracting := [0]
  rhsNonContracting := [1]
  lhsBatch := []
  rhsBatch := []
  wf := dot_S128x8192_S8192x128_S128x128_1_0_0_1_n_n_wf
def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_v28) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S128x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x8192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S128x8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where
  halias0_7 : Pipeline.Aliased win0 0 7

variable [Facts]
-- ==== ReferenceIdeal.lean ====
abbrev S8192x2048x2x2 : Shape := ⟨4, ![8192, 2048, 2, 2]⟩
abbrev S2048 : Shape := ⟨1, ![2048]⟩
abbrev S128x2048 : Shape := ⟨2, ![128, 2048]⟩
abbrev S128 : Shape := ⟨1, ![128]⟩
abbrev S2048x128 : Shape := ⟨2, ![2048, 128]⟩
abbrev S_ : Shape := ⟨0, ![]⟩
abbrev S1x2048x1x1 : Shape := ⟨4, ![1, 2048, 1, 1]⟩
abbrev S8192x2048 : Shape := ⟨2, ![8192, 2048]⟩
abbrev S8192x128 : Shape := ⟨2, ![8192, 128]⟩
abbrev S1x128 : Shape := ⟨2, ![1, 128]⟩
abbrev S1x2048 : Shape := ⟨2, ![1, 2048]⟩
abbrev S8192x2048x1x1 : Shape := ⟨4, ![8192, 2048, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048x2x2, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S128x2048, .f32⟩
  | .hbm, ⟨6, _⟩ => ⟨S128, .f32⟩
  | .hbm, ⟨7, _⟩ => ⟨S2048x128, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S1x2048x1x1, .f32⟩
  | .hbm, ⟨15, _⟩ => ⟨S8192x2048x2x2, .f32⟩
  | .hbm, ⟨16, _⟩ => ⟨S8192x2048x2x2, .f32⟩
  | .hbm, ⟨17, _⟩ => ⟨S2048, .f32⟩
  | .hbm, ⟨18, _⟩ => ⟨S2048, .f32⟩
  | .hbm, ⟨19, _⟩ => ⟨S1x2048x1x1, .f32⟩
  | .hbm, ⟨20, _⟩ => ⟨S8192x2048x2x2, .f32⟩
  | .hbm, ⟨21, _⟩ => ⟨S8192x2048x2x2, .f32⟩
  | .hbm, ⟨22, _⟩ => ⟨S_, .f32⟩
  | .hbm, ⟨23, _⟩ => ⟨S8192x2048x2x2, .f32⟩
  | .hbm, ⟨24, _⟩ => ⟨S8192x2048x2x2, .f32⟩
  | .hbm, ⟨25, _⟩ => ⟨S_, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x128, .f32⟩
  | .hbm, ⟨31, _⟩ => ⟨S1x128, .f32⟩
  | .hbm, ⟨32, _⟩ => ⟨S8192x128, .f32⟩
  | .hbm, ⟨33, _⟩ => ⟨S8192x128, .f32⟩
  | .hbm, ⟨34, _⟩ => ⟨S_, .f32⟩
  | .hbm, ⟨35, _⟩ => ⟨S8192x128, .f32⟩
  | .hbm, ⟨36, _⟩ => ⟨S8192x128, .f32⟩
  | .hbm, ⟨37, _⟩ => ⟨S8192x2048, .f32⟩
  | .hbm, ⟨38, _⟩ => ⟨S1x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048x1x1, .f32⟩
  | .hbm, ⟨50, _⟩ => ⟨S8192x2048x2x2, .f32⟩
  | .hbm, ⟨51, _⟩ => ⟨S8192x2048x2x2, .f32⟩
  | _, _ => ⟨S8192x2048x2x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_call1_cst : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S1x2048x1x1_1 : S2048.BroadcastsInDim S1x2048x1x1 (![1] : Fin 1 → Fin S1x2048x1x1.rank)
  bcast_S1x2048x1x1_S8192x2048x2x2_0_1_2_3 : S1x2048x1x1.BroadcastsInDim S8192x2048x2x2 (![0, 1, 2, 3] : Fin 4 → Fin S8192x2048x2x2.rank)
  bcast_S_S8192x2048x2x2 : S_.BroadcastsInDim S8192x2048x2x2 (![] : Fin 0 → Fin S8192x2048x2x2.rank)
  reducesTo_S8192x2048x2x2_S8192x2048_d2_3 : S8192x2048x2x2.ReducesTo [2, 3] S8192x2048
  h_S_ : 0 < S_.numel
  bcast_S_S8192x2048 : S_.BroadcastsInDim S8192x2048 (![] : Fin 0 → Fin S8192x2048.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  bcast_S8192x2048_S8192x2048x1x1_0_1 : S8192x2048.BroadcastsInDim S8192x2048x1x1 (![0, 1] : Fin 2 → Fin S8192x2048x1x1.rank)
  bcast_S8192x2048x1x1_S8192x2048x2x2_0_1_2_3 : S8192x2048x1x1.BroadcastsInDim S8192x2048x2x2 (![0, 1, 2, 3] : Fin 4 → Fin S8192x2048x2x2.rank)
  dot_S8192x2048_S128x2048_S8192x128_1_1_0_0_n_n_wf : DotDims.WF S8192x2048 S128x2048 S8192x128 [1] [1] [0] [0] [] []
  dot_S8192x128_S2048x128_S8192x2048_1_1_0_0_n_n_wf : DotDims.WF S8192x128 S2048x128 S8192x2048 [1] [1] [0] [0] [] []

variable [Facts₀]

def dot_S8192x2048_S128x2048_S8192x128_1_1_0_0_n_n : DotDims S8192x2048 S128x2048 S8192x128 where
  lhsContracting := [1]
  rhsContracting := [1]
  lhsNonContracting := [0]
  rhsNonContracting := [0]
  lhsBatch := []
  rhsBatch := []
  wf := dot_S8192x2048_S128x2048_S8192x128_1_1_0_0_n_n_wf
def dot_S8192x128_S2048x128_S8192x2048_1_1_0_0_n_n : DotDims S8192x128 S2048x128 S8192x2048 where
  lhsContracting := [1]
  rhsContracting := [1]
  lhsNonContracting := [0]
  rhsNonContracting := [0]
  lhsBatch := []
  rhsBatch := []
  wf := dot_S8192x128_S2048x128_S8192x2048_1_1_0_0_n_n_wf

class Facts : Prop extends Facts₀ where

variable [Facts]
-- ==== Proof.Spec.lean ====
/-
  The function both programs compute, written once over plain coordinates.

  An input `x` of shape [8192, 2048, 2, 2] is normalised per channel `c` (scale `γ·rsqrt(σ² + ε)`, shift
  `β − μ·scale`) and rectified; the four positions of a channel are averaged; two small dense layers (2048 → 128,
  rectified, then 128 → 2048) turn the averages of one batch row into one logit per channel; the logit's logistic
  value is added back onto every position of that channel.

  Two arrangements of that function are written down, each the literal reading of one program:
  * `outR`: the average is `(Σ over the four positions) / 4`, taken before the first dense layer, and the gate is
    `1 / (1 + exp (−z))`;
  * `outK`: the array is flattened to [8192, 8192] (column `4c + 2p + q`), the first dense layer runs over all
    8192 columns against weights `w1 / 4` repeated four times, the gate is `½·tanh(½·z) + ½`, and the result is
    read back through the same flattening.
  Everything is over the extended reals; the literals stay the bit patterns the programs print.
-/
import Idealize.ShloMosaic.PureOps.Ideal
import Idealize.ShloMosaic.Lib.ValueIdx

noncomputable section

namespace Cert.ChannelGate

open Idealize.ShloMosaic Idealize.ShloMosaic.ValueIdx

/-- The input and result arrays, indexed (batch row, channel, row position, column position). -/
abbrev Act := (⟨4, ![8192, 2048, 2, 2]⟩ : Shape).Idx → EReal
/-- One value per channel. -/
abbrev PerChan := (⟨1, ![2048]⟩ : Shape).Idx → EReal
/-- One value per hidden unit. -/
abbrev PerHid := (⟨1, ![128]⟩ : Shape).Idx → EReal
/-- The first layer's weights, indexed (hidden unit, channel). -/
abbrev Down := (⟨2, ![128, 2048]⟩ : Shape).Idx → EReal
/-- The second layer's weights, indexed (channel, hidden unit). -/
abbrev Up := (⟨2, ![2048, 128]⟩ : Shape).Idx → EReal
/-- The flattened array, indexed (batch row, column `4c + 2p + q`). -/
abbrev Flat := (⟨2, ![8192, 8192]⟩ : Shape).Idx → EReal

/-- The variance offset `ε` (the f32 nearest 1e-5), as the pattern both programs print. -/
def eps : EReal := Ideal.ofBits .f32 0x3727C5AC#32
/-- The number of positions per channel, `4`. -/
def four : EReal := Ideal.ofBits .f32 0x40800000#32
/-- `½`. -/
def half : EReal := Ideal.ofBits .f32 0x3F000000#32
/-- `1`. -/
def one : EReal := Ideal.ofBits .f32 0x3F800000#32

/-- Column `4c + 2p + q` of the flattened array holds position `(p, q)` of channel `c`. -/
def col (c : Fin 2048) (p q : Fin 2) : Fin 8192 := ⟨4 * c.val + 2 * p.val + q.val, by omega⟩
/-- The channel of a flattened column. -/
def chan (k : Fin 8192) : Fin 2048 := ⟨k.val / 4, by omega⟩
/-- The row position of a flattened column. -/
def posR (k : Fin 8192) : Fin 2 := ⟨k.val % 4 / 2, by omega⟩
/-- The column position of a flattened column. -/
def posC (k : Fin 8192) : Fin 2 := ⟨k.val % 2, by omega⟩

section
variable (x : Act) (gamma beta mean var : PerChan) (w1 : Down) (b1 : PerHid) (w2 : Up) (b2 : PerChan)

/-- The normalisation's scale of channel `c`: `γ · rsqrt (σ² + ε)`. -/
def scale (c : Fin 2048) : EReal := gamma (ix1 c) * Ideal.rsqrt (var (ix1 c) + eps)

/-- The normalisation's shift of channel `c`: `β − μ · scale`. -/
def shift (c : Fin 2048) : EReal := beta (ix1 c) - mean (ix1 c) * scale gamma var c

/-- The normalised, rectified activation at one position: never negative. -/
def act (b : Fin 8192) (c : Fin 2048) (p q : Fin 2) : EReal :=
  max (x (ix4 b c p q) * scale gamma var c + shift gamma beta mean var c) 0

/-- The average of a channel's four activations, as the sum divided by four. -/
def pooled (b : Fin 8192) (c : Fin 2048) : EReal :=
  Ideal.div (∑ p : Fin 2, ∑ q : Fin 2, act x gamma beta mean var b c p q) four

/-- The hidden layer on the averages: `relu (Σ_c pooled · w1 + b1)`. -/
def hidR (b : Fin 8192) (r : Fin 128) : EReal :=
  max ((∑ c : Fin 2048, pooled x gamma beta mean var b c * w1 (ix2 r c)) + b1 (ix1 r)) 0

/-- The hidden layer on the flattened activations against the weights divided by four:
    `relu (Σ_k act · (w1 / 4) + b1)`. -/
def hidK (b : Fin 8192) (r : Fin 128) : EReal :=
  max ((∑ k : Fin 8192, act x gamma beta mean var b (chan k) (posR k) (posC k) * Ideal.div (w1 (ix2 r (chan k))) four)
    + b1 (ix1 r)) 0

/-- The logit of channel `c` from a hidden layer `H`: `Σ_r H · w2 + b2`. -/
def logit (H : Fin 8192 → Fin 128 → EReal) (b : Fin 8192) (c : Fin 2048) : EReal :=
  (∑ r : Fin 128, H b r * w2 (ix2 c r)) + b2 (ix1 c)

/-- The logistic function as `1 / (1 + exp (−z))`. -/
def gateR (z : EReal) : EReal := Ideal.div one (one + Ideal.exp (-z))

/-- The logistic function as `½ · tanh (½ · z) + ½`. -/
def gateK (z : EReal) : EReal := half * Ideal.tanh (half * z) + half

/-- The result in the first arrangement. -/
def outR : Act := fun i =>
  x i + gateR (logit w2 b2 (hidR x gamma beta mean var w1 b1) (i 0) (i 1))

/-- The flattened result in the second arrangement. -/
def outFlat : Flat := fun j =>
  x (ix4 (j 0) (chan (j 1)) (posR (j 1)) (posC (j 1)))
    + gateK (logit w2 b2 (hidK x gamma beta mean var w1 b1) (j 0) (chan (j 1)))

/-- The result in the second arrangement, read back through the flattening. -/
def outK : Act := fun i =>
  outFlat x gamma beta mean var w1 b1 w2 b2 (ix2 (i 0) (col (i 1) (i 2) (i 3)))

end

end Cert.ChannelGate

end
-- ==== Proof.Algebra.lean ====
/-
  The two arrangements of the channel gate agree on every extended-real input.

  Four facts carry it: the printed literals denote 4, 1/2 and 1; the two spellings of the logistic function
  agree at both infinities and at every real; a sum over the 8192 flattened columns is the sum over channels of
  the sum over the four positions; and a sum of non-negative terms distributes over a common factor, so
  dividing the weights by four is dividing the pooled sum by four.
-/
import proofs.«172977_j59717225284138_2_alg».proof.Proof.Spec
import Idealize.ShloMosaic.PureOps.Ideal.Laws
import Mathlib.Data.EReal.Operations
import Mathlib.Analysis.SpecialFunctions.Trigonometric.DerivHyp

noncomputable section

namespace Cert.ChannelGate

open Idealize.ShloMosaic Idealize.ShloMosaic.ValueIdx

/-! ### The literals -/

/-- The pattern of `4.0` denotes the real `4`. -/
theorem four_eq : four = ((4 : ℝ) : EReal) := by
  unfold four
  simp [Ideal.ofBits, Ideal.ieee, -EReal.coe_mul]; norm_num

/-- The pattern of `0.5` denotes the real `1/2`. -/
theorem half_eq : half = ((1 / 2 : ℝ) : EReal) := by
  unfold half
  simp [Ideal.ofBits, Ideal.ieee, -EReal.coe_mul]; norm_num

/-- The pattern of `1.0` denotes `1`. -/
theorem one_eq : one = 1 := by
  unfold one
  simp [Ideal.ofBits, Ideal.ieee, -EReal.coe_mul]; norm_num

/-! ### The two spellings of the logistic function -/

/-- On the reals, `½ · tanh (½ · r) + ½ = 1 / (1 + e^(−r))`: with `u = e^(r/2)`, the left side is
    `u / (u + u⁻¹)` and `e^(−r) = (u · u)⁻¹`. -/
theorem real_tanh_logistic (r : ℝ) :
    1 / 2 * Real.tanh (1 / 2 * r) + 1 / 2 = (1 + Real.exp (-r))⁻¹ := by
  have hu : 0 < Real.exp (1 / 2 * r) := Real.exp_pos _
  have hv : Real.exp (-(1 / 2 * r)) = (Real.exp (1 / 2 * r))⁻¹ := Real.exp_neg _
  have hr : Real.exp (-r) = (Real.exp (1 / 2 * r) * Real.exp (1 / 2 * r))⁻¹ := by
    rw [← Real.exp_add, ← Real.exp_neg]; congr 1; ring
  rw [Real.tanh_eq, hv, hr]
  generalize Real.exp (1 / 2 * r) = u at hu
  have hu' : u ≠ 0 := hu.ne'
  have h1 : u + u⁻¹ ≠ 0 := by positivity
  have h2 : 1 + (u * u)⁻¹ ≠ 0 := by positivity
  field_simp
  ring

/-- The rescaled hyperbolic tangent is the logistic function, at both infinities too: at `⊥` both are `0`,
    at `⊤` both are `1`. -/
theorem gate_tanh_eq_logistic (z : EReal) : gateK z = gateR z := by
  have hR : gateR z = Ideal.logistic z := by
    unfold gateR Ideal.logistic; rw [one_eq]
  rw [hR]
  unfold gateK
  rw [half_eq]
  have hpos : (0 : ℝ) < 1 / 2 := by norm_num
  induction z using EReal.rec with
  | bot =>
    rw [EReal.coe_mul_bot_of_pos hpos, Ideal.tanh_bot, Ideal.logistic_bot, mul_neg, mul_one,
      ← EReal.coe_neg, ← EReal.coe_add, ← EReal.coe_zero]
    congr 1; norm_num
  | top =>
    rw [EReal.coe_mul_top_of_pos hpos, Ideal.tanh_top, Ideal.logistic_top, mul_one,
      ← EReal.coe_add, ← EReal.coe_one]
    congr 1; norm_num
  | coe r =>
    rw [← EReal.coe_mul, Ideal.tanh_coe, ← EReal.coe_mul, ← EReal.coe_add, Ideal.logistic_coe,
      real_tanh_logistic]

/-! ### Columns are (channel, row position, column position) triples -/

/-- The channel of column `4c + 2p + q` is `c`. -/
theorem chan_col (c : Fin 2048) (p q : Fin 2) : chan (col c p q) = c := by
  apply Fin.ext; simp only [col, chan]; have := p.isLt; have := q.isLt; omega

/-- The row position of column `4c + 2p + q` is `p`. -/
theorem posR_col (c : Fin 2048) (p q : Fin 2) : posR (col c p q) = p := by
  apply Fin.ext; simp only [col, posR]; have := p.isLt; have := q.isLt; omega

/-- The column position of column `4c + 2p + q` is `q`. -/
theorem posC_col (c : Fin 2048) (p q : Fin 2) : posC (col c p q) = q := by
  apply Fin.ext; simp only [col, posC]; have := p.isLt; have := q.isLt; omega

/-- Every column is the column of its own channel and positions. -/
theorem col_chan_pos (k : Fin 8192) : col (chan k) (posR k) (posC k) = k := by
  apply Fin.ext; simp only [col, chan, posR, posC]; omega

/-- The one-to-one correspondence between triples and columns. -/
def colEquiv : (Fin 2048 × Fin 2 × Fin 2) ≃ Fin 8192 where
  toFun t := col t.1 t.2.1 t.2.2
  invFun k := (chan k, posR k, posC k)
  left_inv t := by
    obtain ⟨c, p, q⟩ := t
    simp only [chan_col, posR_col, posC_col]
  right_inv k := col_chan_pos k

/-- A sum over the 8192 columns is the sum over channels of the sum over the four positions. -/
theorem sum_cols (F : Fin 8192 → EReal) :
    ∑ k : Fin 8192, F k = ∑ c : Fin 2048, ∑ p : Fin 2, ∑ q : Fin 2, F (col c p q) := by
  rw [← Fintype.sum_equiv colEquiv (fun t => F (col t.1 t.2.1 t.2.2)) F (fun _ => rfl),
    Fintype.sum_prod_type]
  refine Finset.sum_congr rfl fun c _ => ?_
  rw [Fintype.sum_prod_type]

/-! ### Dividing the weight by four is dividing the pooled sum by four -/

/-- For non-negative `a p q` and any `w`, `Σ a · (w / 4) = (Σ a) / 4 · w`: division by `4` is the product
    with `1/4`, and a sum of non-negative terms distributes over a common right factor. -/
theorem pool_distrib (a : Fin 2 → Fin 2 → EReal) (ha : ∀ p q, 0 ≤ a p q) (w : EReal) :
    ∑ p : Fin 2, ∑ q : Fin 2, a p q * Ideal.div w four
      = Ideal.div (∑ p : Fin 2, ∑ q : Fin 2, a p q) four * w := by
  rw [four_eq, Ideal.div_coe (by norm_num : (4 : ℝ) ≠ 0), Ideal.div_coe (by norm_num : (4 : ℝ) ≠ 0)]
  simp only [Fin.sum_univ_two]
  rw [mul_assoc, mul_comm ((1 / 4 : ℝ) : EReal) w,
    EReal.right_distrib_of_nonneg (add_nonneg (ha 0 0) (ha 0 1)) (add_nonneg (ha 1 0) (ha 1 1)),
    EReal.right_distrib_of_nonneg (ha 0 0) (ha 0 1), EReal.right_distrib_of_nonneg (ha 1 0) (ha 1 1)]

/-! ### The hidden layer and the result -/

section
variable (x : Act) (gamma beta mean var : PerChan) (w1 : Down) (b1 : PerHid) (w2 : Up) (b2 : PerChan)

/-- The hidden layer over the flattened columns against `w1 / 4` is the hidden layer over the channel averages
    against `w1`: the column sum splits by channel, and within a channel the four activations are non-negative. -/
theorem hidK_eq_hidR : hidK x gamma beta mean var w1 b1 = hidR x gamma beta mean var w1 b1 := by
  funext b r
  unfold hidK hidR
  congr 2
  rw [sum_cols]
  refine Finset.sum_congr rfl fun c _ => ?_
  simp only [chan_col, posR_col, posC_col]
  unfold pooled
  exact pool_distrib (fun p q => act x gamma beta mean var b c p q) (fun p q => le_max_right _ _)
    (w1 (ix2 r c))

/-- The two arrangements give the same result at every index, for all extended-real inputs. -/
theorem outK_eq_outR :
    outK x gamma beta mean var w1 b1 w2 b2 = outR x gamma beta mean var w1 b1 w2 b2 := by
  funext i
  obtain ⟨b, c, p, q, rfl⟩ : ∃ b c p q, i = ix4 b c p q := ⟨i 0, i 1, i 2, i 3, eq_ix4 i⟩
  unfold outK outFlat outR
  show x (ix4 b (chan (col c p q)) (posR (col c p q)) (posC (col c p q)))
      + gateK (logit w2 b2 (hidK x gamma beta mean var w1 b1) b (chan (col c p q)))
    = x (ix4 b c p q) + gateR (logit w2 b2 (hidR x gamma beta mean var w1 b1) b c)
  rw [chan_col, posR_col, posC_col, gate_tanh_eq_logistic, hidK_eq_hidR]

end

end Cert.ChannelGate

end
-- ==== Proof.RefSide.lean ====
/-
  The reference program's result is the first arrangement `outR` of the specification.

  Each operation of the reference is read at an index through the generated module's reading lemmas; the per-channel
  scale and shift, the rectified activation, the pooled average, the hidden layer and the logit are identified, one
  after the other, with the specification's functions of the same names. The one operation read here directly is the
  sum over the two position axes: an index of the rank-4 array drops to `(b, c)` exactly when it is `(b, c, p, q)`,
  so the sum over that fibre is the double sum over `p` and `q`; its initial value is the zero pattern, which is the
  extended real `0`.
-/
import proofs.«172977_j59717225284138_2_alg».proof.Proof.Spec
import proofs.«172977_j59717225284138_2_alg».proof.Proof.Gen.ReferenceIdeal.Read
import Idealize.ShloMosaic.Lib.ValueIdx
import Idealize.ShloMosaic.PureOps.Ideal.Laws
import Idealize.ShloMosaic.Lib.Pipeline.Value

noncomputable section

namespace Cert.ChannelGate.RefSide

open Idealize.ShloMosaic Idealize.ShloMosaic.ValueIdx Cert.ReferenceIdeal Cert.ReferenceIdeal.Gen Cert.ReferenceIdeal.Read

/-- A sum over the two position axes of a rank-4 array, read at (batch row, channel): the indices that
    drop to `j` are exactly `(j 0, j 1, p, q)`, so the filtered sum is the double sum over `p` and `q`. -/
theorem hostReduceAdd_positions (h : (⟨4, ![8192, 2048, 2, 2]⟩ : Shape).ReducesTo [2, 3] ⟨2, ![8192, 2048]⟩)
    (v : (⟨4, ![8192, 2048, 2, 2]⟩ : Shape).Idx → EReal) (init : EReal) (j : (⟨2, ![8192, 2048]⟩ : Shape).Idx) :
    Ideal.hostReduceAdd h v init j = init + ∑ p : Fin 2, ∑ q : Fin 2, v (ix4 (j 0) (j 1) p q) := by
  have key : ∀ i : (⟨4, ![8192, 2048, 2, 2]⟩ : Shape).Idx, h.drop i = j → ix4 (j 0) (j 1) (i 2) (i 3) = i := by
    intro i hd
    have h0 : j 0 = i 0 := by rw [← hd]; exact Fin.ext (h.drop_apply_val_of_eq i 0 0)
    have h1 : j 1 = i 1 := by rw [← hd]; exact Fin.ext (h.drop_apply_val_of_eq i 1 1)
    rw [h0, h1]; exact (eq_ix4 i).symm
  unfold Ideal.hostReduceAdd
  congr 1
  rw [← Finset.sum_product']
  refine Finset.sum_nbij' (fun i => (i 2, i 3)) (fun pq => ix4 (j 0) (j 1) pq.1 pq.2) ?_ ?_ ?_ ?_ ?_
  · intro i _; exact Finset.mem_product.mpr ⟨Finset.mem_univ _, Finset.mem_univ _⟩
  · intro pq _
    refine Finset.mem_filter.mpr ⟨Finset.mem_univ _, ?_⟩
    funext b
    match b with
    | ⟨0, _⟩ => exact Fin.ext (h.drop_apply_val_of_eq _ 0 0)
    | ⟨1, _⟩ => exact Fin.ext (h.drop_apply_val_of_eq _ 1 1)
  · intro i hi; exact key i (Finset.mem_filter.mp hi).2
  · intro pq _; rfl
  · intro i hi; exact congrArg v (key i (Finset.mem_filter.mp hi).2).symm

/-- The same at an index given by its coordinates. -/
theorem hostReduceAdd_positions_ix2 (h : (⟨4, ![8192, 2048, 2, 2]⟩ : Shape).ReducesTo [2, 3] ⟨2, ![8192, 2048]⟩)
    (v : (⟨4, ![8192, 2048, 2, 2]⟩ : Shape).Idx → EReal) (init : EReal) (b : Fin 8192) (c : Fin 2048) :
    Ideal.hostReduceAdd h v init (ix2 b c) = init + ∑ p : Fin 2, ∑ q : Fin 2, v (ix4 b c p q) :=
  hostReduceAdd_positions h v init (ix2 b c)

/-- The per-channel scale stage is `γ · rsqrt (σ² + ε)`. -/
theorem scale_stage (x1 x4 : PerChan) (c : Fin 2048) :
    val_main_v3 (F := Ideal) x1 x4 (ix1 c) = scale x1 x4 c := by
  rw [val_main_v3_apply, val_main_v2_apply, val_main_v1_apply, val_main_v0_apply, val_main_cst_apply]
  rfl

/-- The per-channel shift stage is `β − μ · scale`. -/
theorem shift_stage (x1 x2 x3 x4 : PerChan) (c : Fin 2048) :
    val_main_v8 (F := Ideal) x1 x2 x3 x4 (ix1 c) = shift x1 x2 x3 x4 c := by
  rw [val_main_v8_apply, val_main_v7_apply, scale_stage]
  rfl

/-- The rectified, normalised activation stage at one position. -/
theorem act_stage (x0 : Act) (x1 x2 x3 x4 : PerChan) (b : Fin 8192) (c : Fin 2048) (p q : Fin 2) :
    val_main_v12 (F := Ideal) x0 x1 x2 x3 x4 (ix4 b c p q) = act x0 x1 x2 x3 x4 b c p q := by
  have e5 : idx_main_v4 (idx_main_v5 (ix4 b c p q)) = ix1 c :=
    funext fun a => Fin.ext (by match a with | ⟨0, _⟩ => rfl)
  have e10 : idx_main_v9 (idx_main_v10 (ix4 b c p q)) = ix1 c :=
    funext fun a => Fin.ext (by match a with | ⟨0, _⟩ => rfl)
  rw [val_main_v12_apply, val_main_v11_apply, val_main_v6_apply, val_main_v5_apply, val_main_v4_apply,
    val_main_v10_apply, val_main_v9_apply, val_main_call0_v0_apply, val_main_call0_cst_apply, e5, e10,
    scale_stage, shift_stage]
  simp only [Ideal.maximumf_def, Ideal.addf_def, Ideal.mulf_def, Ideal.ofBits_def, Ideal.ofBits_zero_f32, act]

/-- The pooled stage: the sum over a channel's four positions (from the zero initial value) divided by four. -/
theorem pooled_stage (x0 : Act) (x1 x2 x3 x4 : PerChan) (b : Fin 8192) (c : Fin 2048) :
    val_main_v15 (F := Ideal) x0 x1 x2 x3 x4 (ix2 b c) = pooled x0 x1 x2 x3 x4 b c := by
  have e13 : val_main_v13 (F := Ideal) x0 x1 x2 x3 x4 (ix2 b c)
      = ∑ p : Fin 2, ∑ q : Fin 2, act x0 x1 x2 x3 x4 b c p q := by
    show Ideal.hostReduceAdd reducesTo_S8192x2048x2x2_S8192x2048_d2_3 (val_main_v12 (F := Ideal) x0 x1 x2 x3 x4)
      (val_main_cst_0 (F := Ideal) (Shape.Idx.first h_S_)) (ix2 b c) = _
    rw [hostReduceAdd_positions_ix2, val_main_cst_0_apply]
    simp only [act_stage, Ideal.ofBits_def, Ideal.ofBits_zero_f32, zero_add]
  rw [val_main_v15_apply, val_main_v14_apply, val_main_cst_1_apply, e13]
  rfl

/-- The hidden-layer stage: the rectified dense layer over the pooled averages. -/
theorem hidden_stage (x0 : Act) (x1 x2 x3 x4 : PerChan) (x5 : Down) (x6 : PerHid) (b : Fin 8192) (r : Fin 128) :
    val_main_v20 (F := Ideal) x0 x1 x2 x3 x4 x5 x6 (ix2 b r) = hidR x0 x1 x2 x3 x4 x5 x6 b r := by
  have el : ∀ k : Fin 2048, lidx_main_v16 (ix2 b r) k = ix2 b k := fun k =>
    funext fun a => Fin.ext (by match a with | ⟨0, _⟩ => rfl | ⟨1, _⟩ => rfl)
  have er : ∀ k : Fin 2048, ridx_main_v16 (ix2 b r) k = ix2 r k := fun k =>
    funext fun a => Fin.ext (by match a with | ⟨0, _⟩ => rfl | ⟨1, _⟩ => rfl)
  have e18 : idx_main_v17 (idx_main_v18 (ix2 b r)) = ix1 r :=
    funext fun a => Fin.ext (by match a with | ⟨0, _⟩ => rfl)
  rw [val_main_v20_apply, val_main_v19_apply, val_main_v16_apply, val_main_v18_apply, val_main_v17_apply,
    val_main_call1_v0_apply, val_main_call1_cst_apply, e18]
  simp only [el, er, pooled_stage, Ideal.maximumf_def, Ideal.addf_def, Ideal.ofBits_def, Ideal.ofBits_zero_f32, hidR]

/-- The logit stage: the second dense layer over the hidden units. -/
theorem logit_stage (x0 : Act) (x1 x2 x3 x4 : PerChan) (x5 : Down) (x6 : PerHid) (x7 : Up) (x8 : PerChan)
    (b : Fin 8192) (c : Fin 2048) :
    val_main_v24 (F := Ideal) x0 x1 x2 x3 x4 x5 x6 x7 x8 (ix2 b c)
      = logit x7 x8 (hidR x0 x1 x2 x3 x4 x5 x6) b c := by
  have el : ∀ k : Fin 128, lidx_main_v21 (ix2 b c) k = ix2 b k := fun k =>
    funext fun a => Fin.ext (by match a with | ⟨0, _⟩ => rfl | ⟨1, _⟩ => rfl)
  have er : ∀ k : Fin 128, ridx_main_v21 (ix2 b c) k = ix2 c k := fun k =>
    funext fun a => Fin.ext (by match a with | ⟨0, _⟩ => rfl | ⟨1, _⟩ => rfl)
  have e23 : idx_main_v22 (idx_main_v23 (ix2 b c)) = ix1 c :=
    funext fun a => Fin.ext (by match a with | ⟨0, _⟩ => rfl)
  rw [val_main_v24_apply, val_main_v21_apply, val_main_v23_apply, val_main_v22_apply, e23]
  simp only [el, er, hidden_stage, Ideal.addf_def, logit]

/-- The reference's result is the first arrangement of the specification. -/
theorem ref_eq (x0 : Cert.ChannelGate.Act) (x1 x2 x3 x4 : Cert.ChannelGate.PerChan) (x5 : Cert.ChannelGate.Down)
    (x6 : Cert.ChannelGate.PerHid) (x7 : Cert.ChannelGate.Up) (x8 : Cert.ChannelGate.PerChan) :
    Cert.ReferenceIdeal.Read.val_main_v33 (F := Ideal) x0 x1 x2 x3 x4 x5 x6 x7 x8
      = Cert.ChannelGate.outR x0 x1 x2 x3 x4 x5 x6 x7 x8 := by
  funext i
  obtain ⟨b, c, p, q, rfl⟩ : ∃ (b : Fin 8192) (c : Fin 2048) (p q : Fin 2), i = ix4 b c p q :=
    ⟨i 0, i 1, i 2, i 3, eq_ix4 i⟩
  have e32 : idx_main_v31 (idx_main_v32 (ix4 b c p q)) = ix2 b c :=
    funext fun a => Fin.ext (by match a with | ⟨0, _⟩ => rfl | ⟨1, _⟩ => rfl)
  rw [val_main_v33_apply, val_main_v32_apply, val_main_v31_apply, e32, val_main_v30_apply, val_main_v29_apply,
    val_main_cst_3_apply, val_main_v28_apply, val_main_v27_apply, val_main_cst_2_apply, val_main_v26_apply,
    val_main_v25_apply, logit_stage]
  rfl

end Cert.ChannelGate.RefSide

end
-- ==== Proof.KEntry.lean ====
/-
  What the kernel's launch finds in each operand array, read at an index in terms of the program's arguments.

  Before the launch the host flattens `x` to [8192, 8192] (column `4c + 2p + q`), computes the normalisation's scale
  and shift per channel and repeats each four times along the flattened axis, transposes the first layer's weights,
  repeats each channel's row four times and divides by four, transposes the second layer's weights and repeats each
  channel's column four times, and repeats the second bias likewise. So column `k` of every repeated operand holds
  the value of channel `k / 4`.
-/
import proofs.«172977_j59717225284138_2_alg».proof.Proof.Gen.KernelIdeal.Frame
import proofs.«172977_j59717225284138_2_alg».proof.Proof.Spec
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.ChannelGate

variable (m : (ℓ : Loc nD τ sig) → Buf (Elt Ideal) ℓ) (c : Dev nD)

/-- A per-channel vector repeated four times along the flattened axis, as a row: column `k` holds channel `k / 4`. -/
theorem repeat4_row_apply (v : S2048.Idx → EReal) (z : Fin 1) (k : Fin 8192) :
    broadcastInDim S1x8192 ![1] bcast_S8192_S1x8192_1
      (shapeCast S8192 (broadcastInDim S2048x4 ![0] bcast_S2048_S2048x4_0 v) shapeCasts_S2048x4_S8192) (ix2 z k)
      = v (ix1 (chan k)) := by
  refine (broadcastInDim_apply _ _ _ (ix2 z k) (ix1 k) (fun a => ?_)).trans ?_
  · match a with
    | ⟨0, _⟩ => rfl
  refine (shapeCast_apply _ _ (ix1 k) (ix2 (chan k) (⟨k.val % 4, by omega⟩ : Fin 4)) ?_).trans ?_
  · rw [Shape.rowMajor_val_two, Shape.rowMajor_val_one]
    show k.val / 4 * 4 + k.val % 4 = k.val
    omega
  refine broadcastInDim_apply _ _ _ _ (ix1 (chan k)) (fun a => ?_)
  match a with
  | ⟨0, _⟩ => rfl

/-- The flattened input: column `k` of row `b` is position `(k % 4 / 2, k % 2)` of channel `k / 4`. -/
theorem x_apply (b k : Fin 8192) :
    (V m c main_v28 : S8192x8192.Idx → EReal) (ix2 b k)
      = (m ((c : Thread nD τ).loc main_arg0) : S8192x2048x2x2.Idx → EReal) (ix4 b (chan k) (posR k) (posC k)) := by
  have e : (V m c main_v28 : S8192x8192.Idx → EReal)
      = shapeCast S8192x8192 (m ((c : Thread nD τ).loc main_arg0)) shapeCasts_S8192x2048x2x2_S8192x8192 := by
    dsimp only [V, V0]
    simp only [hostOps0, hostOps0_1, List.flatten_cons, List.flatten_nil, List.append_nil, List.cons_append, List.nil_append]
    after_results <;> rfl
  rw [e]
  refine shapeCast_apply _ _ _ _ ?_
  show (S8192x2048x2x2.rowMajor (ix4 b (chan k) (posR k) (posC k))).val = (S8192x8192.rowMajor (ix2 b k)).val
  rw [Shape.rowMajor_val_four, Shape.rowMajor_val_two]
  show ((b.val * 2048 + k.val / 4) * 2 + k.val % 4 / 2) * 2 + k.val % 2 = b.val * 8192 + k.val
  omega

/-- The scale operand: column `k` holds the scale of channel `k / 4`. -/
theorem scale_apply (z : Fin 1) (k : Fin 8192) :
    (V m c main_v9 : S1x8192.Idx → EReal) (ix2 z k)
      = scale (m ((c : Thread nD τ).loc main_arg1)) (m ((c : Thread nD τ).loc main_arg4)) (chan k) := by
  have e : (V m c main_v9 : S1x8192.Idx → EReal)
      = truncf .bf16 (broadcastInDim S1x8192 ![1] bcast_S8192_S1x8192_1
          (shapeCast S8192 (broadcastInDim S2048x4 ![0] bcast_S2048_S2048x4_0
            (mulf (m ((c : Thread nD τ).loc main_arg1)) (Host.rsqrt (addf (m ((c : Thread nD τ).loc main_arg4))
              (broadcastInDim S2048 ![] bcast_S_S2048 (constant (F := Ideal) S_ .f32 0x3727C5AC#32))))))
            shapeCasts_S2048x4_S8192)) bitsLt_bf16_f32 := by
    dsimp only [V, V0]
    simp only [hostOps0, hostOps0_1, List.flatten_cons, List.flatten_nil, List.append_nil, List.cons_append, List.nil_append]
    after_results <;> rfl
  rw [e, truncf_apply, repeat4_row_apply]
  rfl

/-- The shift operand: column `k` holds the shift of channel `k / 4`. -/
theorem shift_apply (z : Fin 1) (k : Fin 8192) :
    (V m c main_v13 : S1x8192.Idx → EReal) (ix2 z k)
      = shift (m ((c : Thread nD τ).loc main_arg1)) (m ((c : Thread nD τ).loc main_arg2))
          (m ((c : Thread nD τ).loc main_arg3)) (m ((c : Thread nD τ).loc main_arg4)) (chan k) := by
  have e : (V m c main_v13 : S1x8192.Idx → EReal)
      = truncf .bf16 (broadcastInDim S1x8192 ![1] bcast_S8192_S1x8192_1
          (shapeCast S8192 (broadcastInDim S2048x4 ![0] bcast_S2048_S2048x4_0
            (subf (m ((c : Thread nD τ).loc main_arg2)) (mulf (m ((c : Thread nD τ).loc main_arg3))
              (mulf (m ((c : Thread nD τ).loc main_arg1)) (Host.rsqrt (addf (m ((c : Thread nD τ).loc main_arg4))
                (broadcastInDim S2048 ![] bcast_S_S2048 (constant (F := Ideal) S_ .f32 0x3727C5AC#32))))))))
            shapeCasts_S2048x4_S8192)) bitsLt_bf16_f32 := by
    dsimp only [V, V0]
    simp only [hostOps0, hostOps0_1, List.flatten_cons, List.flatten_nil, List.append_nil, List.cons_append, List.nil_append]
    after_results <;> rfl
  rw [e, truncf_apply, repeat4_row_apply]
  rfl

/-- The first layer's operand: row `k`, column `r` holds `w1[r, k / 4] / 4`. -/
theorem w1_apply (k : Fin 8192) (r : Fin 128) :
    (V m c main_v19 : S8192x128.Idx → EReal) (ix2 k r)
      = Ideal.div ((m ((c : Thread nD τ).loc main_arg5) : S128x2048.Idx → EReal) (ix2 r (chan k))) four := by
  have e : (V m c main_v19 : S8192x128.Idx → EReal)
      = truncf .bf16 (Host.divf
          (shapeCast S8192x128 (broadcastInDim S2048x4x128 ![0, 2] bcast_S2048x128_S2048x4x128_0_2
            (transpose S2048x128 [1, 0] (m ((c : Thread nD τ).loc main_arg5)) transposes_S128x2048_S2048x128_1_0))
            shapeCasts_S2048x4x128_S8192x128)
          (broadcastInDim S8192x128 ![] bcast_S_S8192x128 (constant (F := Ideal) S_ .f32 0x40800000#32))) bitsLt_bf16_f32 := by
    dsimp only [V, V0]
    simp only [hostOps0, hostOps0_1, List.flatten_cons, List.flatten_nil, List.append_nil, List.cons_append, List.nil_append]
    after_results <;> rfl
  rw [e, truncf_apply]
  show Ideal.div _ _ = Ideal.div _ _
  congr 1
  refine (shapeCast_apply _ _ (ix2 k r) (ix3 (chan k) (⟨k.val % 4, by omega⟩ : Fin 4) r) ?_).trans ?_
  · rw [Shape.rowMajor_val_three, Shape.rowMajor_val_two]
    show (k.val / 4 * 4 + k.val % 4) * 128 + r.val = k.val * 128 + r.val
    omega
  refine (broadcastInDim_apply _ _ _ _ (ix2 (chan k) r) (fun a => ?_)).trans ?_
  · match a with
    | ⟨0, _⟩ => rfl
    | ⟨1, _⟩ => rfl
  refine transpose_apply _ _ _ _ (ix2 r (chan k)) (fun a => ?_)
  match a with
  | ⟨0, _⟩ => rfl
  | ⟨1, _⟩ => rfl

/-- The first bias, as a row. -/
theorem b1_apply (z : Fin 1) (r : Fin 128) :
    (V m c main_v24 : S1x128.Idx → EReal) (ix2 z r) = (m ((c : Thread nD τ).loc main_arg6) : S128.Idx → EReal) (ix1 r) := by
  have e : (V m c main_v24 : S1x128.Idx → EReal)
      = broadcastInDim S1x128 ![1] bcast_S128_S1x128_1 (m ((c : Thread nD τ).loc main_arg6)) := by
    dsimp only [V, V0]
    simp only [hostOps0, hostOps0_1, List.flatten_cons, List.flatten_nil, List.append_nil, List.cons_append, List.nil_append]
    after_results <;> rfl
  rw [e]
  refine broadcastInDim_apply _ _ _ _ (ix1 r) (fun a => ?_)
  match a with
  | ⟨0, _⟩ => rfl

/-- The second layer's operand: row `r`, column `k` holds `w2[k / 4, r]`. -/
theorem w2_apply (r : Fin 128) (k : Fin 8192) :
    (V m c main_v23 : S128x8192.Idx → EReal) (ix2 r k)
      = (m ((c : Thread nD τ).loc main_arg7) : S2048x128.Idx → EReal) (ix2 (chan k) r) := by
  have e : (V m c main_v23 : S128x8192.Idx → EReal)
      = truncf (F := Ideal) .bf16 (shapeCast S128x8192 (broadcastInDim S128x2048x4 ![0, 1] bcast_S128x2048_S128x2048x4_0_1
            (transpose S128x2048 [1, 0] (m ((c : Thread nD τ).loc main_arg7)) transposes_S2048x128_S128x2048_1_0))
            shapeCasts_S128x2048x4_S128x8192) bitsLt_bf16_f32 := by
    dsimp only [V, V0]
    simp only [hostOps0, hostOps0_1, List.flatten_cons, List.flatten_nil, List.append_nil, List.cons_append, List.nil_append]
    after_results <;> rfl
  rw [e, truncf_apply]
  refine (shapeCast_apply _ _ (ix2 r k) (ix3 r (chan k) (⟨k.val % 4, by omega⟩ : Fin 4)) ?_).trans ?_
  · rw [Shape.rowMajor_val_three, Shape.rowMajor_val_two]
    show (r.val * 2048 + k.val / 4) * 4 + k.val % 4 = r.val * 8192 + k.val
    omega
  refine (broadcastInDim_apply _ _ _ _ (ix2 r (chan k)) (fun a => ?_)).trans ?_
  · match a with
    | ⟨0, _⟩ => rfl
    | ⟨1, _⟩ => rfl
  refine transpose_apply _ _ _ _ (ix2 (chan k) r) (fun a => ?_)
  match a with
  | ⟨0, _⟩ => rfl
  | ⟨1, _⟩ => rfl

/-- The second bias operand: column `k` holds the bias of channel `k / 4`. -/
theorem b2_apply (z : Fin 1) (k : Fin 8192) :
    (V m c main_v27 : S1x8192.Idx → EReal) (ix2 z k) = (m ((c : Thread nD τ).loc main_arg8) : S2048.Idx → EReal) (ix1 (chan k)) := by
  have e : (V m c main_v27 : S1x8192.Idx → EReal)
      = broadcastInDim S1x8192 ![1] bcast_S8192_S1x8192_1
          (shapeCast S8192 (broadcastInDim S2048x4 ![0] bcast_S2048_S2048x4_0 (m ((c : Thread nD τ).loc main_arg8)))
            shapeCasts_S2048x4_S8192) := by
    dsimp only [V, V0]
    simp only [hostOps0, hostOps0_1, List.flatten_cons, List.flatten_nil, List.append_nil, List.cons_append, List.nil_append]
    after_results <;> rfl
  rw [e, repeat4_row_apply]

end Cert.KernelIdeal.Entry

end
-- ==== Proof.KProducts.lean ====
/-
  The kernel's two matrix products read at an index: into a zero accumulator each is the plain sum of products over
  the one contracted axis — the first over the 8192 flattened columns, the second over the 128 hidden units.
-/
import proofs.«172977_j59717225284138_2_alg».proof.Proof.Gen.KernelIdeal.Frame
import proofs.«172977_j59717225284138_2_alg».proof.Proof.Spec
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.TcCoe Idealize.SL.Sem
open Idealize.ShloMosaic.StableHlo Idealize.ShloMosaic.ValueIdx Cert.ChannelGate

/-! The operand indices of the two products, coordinate by coordinate: the left operand is read at (row, contracted),
    the right at (contracted, column). -/

theorem lhs0_dot_S128x8192_S8192x128_S128x128_1_0_0_1_n_n (i : S128x128.Idx) (q : dot_S128x8192_S8192x128_S128x128_1_0_0_1_n_n.contr.Idx) : (dot_S128x8192_S8192x128_S128x128_1_0_0_1_n_n.lhsIdx i q 0).val = (i 0).val := by
  unfold DotDims.lhsIdx
  rw [dif_neg (show ¬(0 : Fin S128x8192.rank) ∈ dot_S128x8192_S8192x128_S128x128_1_0_0_1_n_n.lhsBatch by decide), dif_pos (show (0 : Fin S128x8192.rank) ∈ dot_S128x8192_S8192x128_S128x128_1_0_0_1_n_n.lhsNonContracting by decide)]
  rfl
theorem lhs1_dot_S128x8192_S8192x128_S128x128_1_0_0_1_n_n (i : S128x128.Idx) (q : dot_S128x8192_S8192x128_S128x128_1_0_0_1_n_n.contr.Idx) : (dot_S128x8192_S8192x128_S128x128_1_0_0_1_n_n.lhsIdx i q 1).val = (q ⟨0, by decide⟩).val :=
  dot_S128x8192_S8192x128_S128x128_1_0_0_1_n_n.lhsIdx_val_of_single rfl i q
theorem rhs0_dot_S128x8192_S8192x128_S128x128_1_0_0_1_n_n (i : S128x128.Idx) (q : dot_S128x8192_S8192x128_S128x128_1_0_0_1_n_n.contr.Idx) : (dot_S128x8192_S8192x128_S128x128_1_0_0_1_n_n.rhsIdx i q 0).val = (q ⟨0, by decide⟩).val :=
  dot_S128x8192_S8192x128_S128x128_1_0_0_1_n_n.rhsIdx_val_of_single rfl i q
theorem rhs1_dot_S128x8192_S8192x128_S128x128_1_0_0_1_n_n (i : S128x128.Idx) (q : dot_S128x8192_S8192x128_S128x128_1_0_0_1_n_n.contr.Idx) : (dot_S128x8192_S8192x128_S128x128_1_0_0_1_n_n.rhsIdx i q 1).val = (i 1).val := by
  unfold DotDims.rhsIdx
  rw [dif_neg (show ¬(1 : Fin S8192x128.rank) ∈ dot_S128x8192_S8192x128_S128x128_1_0_0_1_n_n.rhsBatch by decide), dif_pos (show (1 : Fin S8192x128.rank) ∈ dot_S128x8192_S8192x128_S128x128_1_0_0_1_n_n.rhsNonContracting by decide)]
  rfl

theorem lhs0_dot_S128x128_S128x8192_S128x8192_1_0_0_1_n_n (i : S128x8192.Idx) (q : dot_S128x128_S128x8192_S128x8192_1_0_0_1_n_n.contr.Idx) : (dot_S128x128_S128x8192_S128x8192_1_0_0_1_n_n.lhsIdx i q 0).val = (i 0).val := by
  unfold DotDims.lhsIdx
  rw [dif_neg (show ¬(0 : Fin S128x128.rank) ∈ dot_S128x128_S128x8192_S128x8192_1_0_0_1_n_n.lhsBatch by decide), dif_pos (show (0 : Fin S128x128.rank) ∈ dot_S128x128_S128x8192_S128x8192_1_0_0_1_n_n.lhsNonContracting by decide)]
  rfl
theorem lhs1_dot_S128x128_S128x8192_S128x8192_1_0_0_1_n_n (i : S128x8192.Idx) (q : dot_S128x128_S128x8192_S128x8192_1_0_0_1_n_n.contr.Idx) : (dot_S128x128_S128x8192_S128x8192_1_0_0_1_n_n.lhsIdx i q 1).val = (q ⟨0, by decide⟩).val :=
  dot_S128x128_S128x8192_S128x8192_1_0_0_1_n_n.lhsIdx_val_of_single rfl i q
theorem rhs0_dot_S128x128_S128x8192_S128x8192_1_0_0_1_n_n (i : S128x8192.Idx) (q : dot_S128x128_S128x8192_S128x8192_1_0_0_1_n_n.contr.Idx) : (dot_S128x128_S128x8192_S128x8192_1_0_0_1_n_n.rhsIdx i q 0).val = (q ⟨0, by decide⟩).val :=
  dot_S128x128_S128x8192_S128x8192_1_0_0_1_n_n.rhsIdx_val_of_single rfl i q
theorem rhs1_dot_S128x128_S128x8192_S128x8192_1_0_0_1_n_n (i : S128x8192.Idx) (q : dot_S128x128_S128x8192_S128x8192_1_0_0_1_n_n.contr.Idx) : (dot_S128x128_S128x8192_S128x8192_1_0_0_1_n_n.rhsIdx i q 1).val = (i 1).val := by
  unfold DotDims.rhsIdx
  rw [dif_neg (show ¬(1 : Fin S128x8192.rank) ∈ dot_S128x128_S128x8192_S128x8192_1_0_0_1_n_n.rhsBatch by decide), dif_pos (show (1 : Fin S128x8192.rank) ∈ dot_S128x128_S128x8192_S128x8192_1_0_0_1_n_n.rhsNonContracting by decide)]
  rfl

/-- The first product, [128, 8192] × [8192, 128]: entry `(a, r)` is `Σ_k L[a, k] · R[k, r]`. -/
theorem down_apply (L : FVec Ideal S128x8192 .bf16) (R : FVec Ideal S8192x128 .bf16) (a r : Fin 128) :
    matmul dot_S128x8192_S8192x128_S128x128_1_0_0_1_n_n none L R (constant S128x128 .f32 0x00000000#32) (ix2 a r)
      = ∑ k : Fin 8192, L (ix2 a k) * R (ix2 k r) := by
  simp only [matmul]
  rw [Ideal.matmul_constant_zero_apply, ← Equiv.sum_comp (contrEquiv1 dot_S128x8192_S8192x128_S128x128_1_0_0_1_n_n 8192 rfl rfl).symm]
  refine Finset.sum_congr rfl fun k _ => ?_
  have hk := contrEquiv1_symm_val dot_S128x8192_S8192x128_S128x128_1_0_0_1_n_n 8192 rfl rfl k
  have el : dot_S128x8192_S8192x128_S128x128_1_0_0_1_n_n.lhsIdx (ix2 a r) ((contrEquiv1 dot_S128x8192_S8192x128_S128x128_1_0_0_1_n_n 8192 rfl rfl).symm k) = ix2 a k :=
    funext fun x => Fin.ext (by
      match x with
      | ⟨0, _⟩ => exact lhs0_dot_S128x8192_S8192x128_S128x128_1_0_0_1_n_n _ _
      | ⟨1, _⟩ => exact (lhs1_dot_S128x8192_S8192x128_S128x128_1_0_0_1_n_n _ _).trans hk)
  have er : dot_S128x8192_S8192x128_S128x128_1_0_0_1_n_n.rhsIdx (ix2 a r) ((contrEquiv1 dot_S128x8192_S8192x128_S128x128_1_0_0_1_n_n 8192 rfl rfl).symm k) = ix2 k r :=
    funext fun x => Fin.ext (by
      match x with
      | ⟨0, _⟩ => exact (rhs0_dot_S128x8192_S8192x128_S128x128_1_0_0_1_n_n _ _).trans hk
      | ⟨1, _⟩ => exact rhs1_dot_S128x8192_S8192x128_S128x128_1_0_0_1_n_n _ _)
  rw [el, er]

/-- The second product, [128, 128] × [128, 8192]: entry `(a, k)` is `Σ_r L[a, r] · R[r, k]`. -/
theorem up_apply (L : FVec Ideal S128x128 .bf16) (R : FVec Ideal S128x8192 .bf16) (a : Fin 128) (k : Fin 8192) :
    matmul dot_S128x128_S128x8192_S128x8192_1_0_0_1_n_n none L R (constant S128x8192 .f32 0x00000000#32) (ix2 a k)
      = ∑ r : Fin 128, L (ix2 a r) * R (ix2 r k) := by
  simp only [matmul]
  rw [Ideal.matmul_constant_zero_apply, ← Equiv.sum_comp (contrEquiv1 dot_S128x128_S128x8192_S128x8192_1_0_0_1_n_n 128 rfl rfl).symm]
  refine Finset.sum_congr rfl fun r _ => ?_
  have hr := contrEquiv1_symm_val dot_S128x128_S128x8192_S128x8192_1_0_0_1_n_n 128 rfl rfl r
  have el : dot_S128x128_S128x8192_S128x8192_1_0_0_1_n_n.lhsIdx (ix2 a k) ((contrEquiv1 dot_S128x128_S128x8192_S128x8192_1_0_0_1_n_n 128 rfl rfl).symm r) = ix2 a r :=
    funext fun x => Fin.ext (by
      match x with
      | ⟨0, _⟩ => exact lhs0_dot_S128x128_S128x8192_S128x8192_1_0_0_1_n_n _ _
      | ⟨1, _⟩ => exact (lhs1_dot_S128x128_S128x8192_S128x8192_1_0_0_1_n_n _ _).trans hr)
  have er : dot_S128x128_S128x8192_S128x8192_1_0_0_1_n_n.rhsIdx (ix2 a k) ((contrEquiv1 dot_S128x128_S128x8192_S128x8192_1_0_0_1_n_n 128 rfl rfl).symm r) = ix2 r k :=
    funext fun x => Fin.ext (by
      match x with
      | ⟨0, _⟩ => exact (rhs0_dot_S128x128_S128x8192_S128x8192_1_0_0_1_n_n _ _).trans hr
      | ⟨1, _⟩ => exact rhs1_dot_S128x128_S128x8192_S128x8192_1_0_0_1_n_n _ _)
  rw [el, er]

end Cert.KernelIdeal.Products

end
-- ==== Proof.KPayload.lean ====
/-
  The idealized kernel's body read at one entry.

  The body is one pure function of seven blocks: a [128, 8192] block of rows `x0`, a scale row `x1` and a shift row
  `x2` over the 8192 flattened columns, the first layer's weights `x3` ([8192, 128]) with bias row `x4`, the second
  layer's weights `x5` ([128, 8192]) with bias row `x6`. At row `a` and column `k` it is the input entry plus
  `½ · tanh (½ · z) + ½` of the logit `z = Σ_r relu (Σ_k' relu (x0[a,k'] · x1[k'] + x2[k']) · x3[k',r] + x4[r]) · x5[r,k] + x6[k]`.
  The format changes are the identity on extended reals, the same-shape casts are the identity, a row broadcast reads
  the one row, a product into a zero accumulator is the plain sum of products, and both zero patterns are `0`.
-/
import proofs.«172977_j59717225284138_2_alg».proof.Proof.Gen.KernelIdeal.Frame
import proofs.«172977_j59717225284138_2_alg».proof.Proof.Spec
import proofs.«172977_j59717225284138_2_alg».proof.Proof.KProducts
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.TcCoe Idealize.ShloMosaic.ValueIdx
open Cert.ChannelGate

/-- The bf16 zero pattern is the extended real zero. -/
theorem zero_bf16 : Scalar.ofBits (F := Ideal) .bf16 0x0000#16 = 0 := by
  show Ideal.ofBits .bf16 0x0000#16 = 0
  simp [Ideal.ofBits, Ideal.ieee]

/-- The f32 zero pattern is the extended real zero. -/
theorem zero_f32 : Scalar.ofBits (F := Ideal) .f32 0x00000000#32 = 0 := Ideal.ofBits_zero_f32

/-- The rectified activation block at row `a`, column `k`: the row's entry scaled and shifted by the column's
    scale and shift, then rectified. -/
theorem act_apply (x0 : FVec Ideal S128x8192 .f32) (x1 x2 : FVec Ideal S1x8192 .bf16) (a : Fin 128) (k : Fin 8192) :
    maximumf (addf (mulf (truncf .bf16 x0 bitsLt_bf16_f32) (broadcastTo S128x8192 x1 broadcasts_S1x8192_S128x8192))
        (broadcastTo S128x8192 x2 broadcasts_S1x8192_S128x8192)) (broadcast S128x8192 (Scalar.ofBits .bf16 0x0000#16)) (ix2 a k)
      = max (x0 (ix2 a k) * x1 (ix2 (0 : Fin 1) k) + x2 (ix2 (0 : Fin 1) k)) 0 := by
  rw [maximumf_apply, addf_apply, mulf_apply, truncf_apply, broadcast_apply, broadcastTo_1b_ab_apply,
    broadcastTo_1b_ab_apply, zero_bf16]

/-- The hidden block at row `a`, unit `r`, over any left operand `A`: the product's entry plus the unit's bias,
    rectified. -/
theorem hidden_apply (A : FVec Ideal S128x8192 .bf16) (x3 : FVec Ideal S8192x128 .bf16) (x4 : FVec Ideal S1x128 .f32)
    (a r : Fin 128) :
    truncf .bf16 (maximumf (addf (matmul dot_S128x8192_S8192x128_S128x128_1_0_0_1_n_n none A x3 (constant S128x128 .f32 0x00000000#32))
        (broadcastTo S128x128 x4 broadcasts_S1x128_S128x128)) (broadcast S128x128 (Scalar.ofBits .f32 0x00000000#32))) bitsLt_bf16_f32 (ix2 a r)
      = max ((∑ k' : Fin 8192, A (ix2 a k') * x3 (ix2 k' r)) + x4 (ix2 (0 : Fin 1) r)) 0 := by
  rw [truncf_apply, maximumf_apply, addf_apply, broadcast_apply, broadcastTo_1b_ab_apply, zero_f32,
    Cert.KernelIdeal.Products.down_apply]

/-- The logit block at row `a`, column `k`, over any left operand `H`: the product's entry plus the column's bias. -/
theorem logit_apply (H : FVec Ideal S128x128 .bf16) (x5 : FVec Ideal S128x8192 .bf16) (x6 : FVec Ideal S1x8192 .f32)
    (a : Fin 128) (k : Fin 8192) :
    addf (matmul dot_S128x128_S128x8192_S128x8192_1_0_0_1_n_n none H x5 (constant S128x8192 .f32 0x00000000#32))
        (broadcastTo S128x8192 x6 broadcasts_S1x8192_S128x8192) (ix2 a k)
      = (∑ r : Fin 128, H (ix2 a r) * x5 (ix2 r k)) + x6 (ix2 (0 : Fin 1) k) := by
  rw [addf_apply, broadcastTo_1b_ab_apply, Cert.KernelIdeal.Products.up_apply]

/-- The gate block over any logits `Z`: `½ · tanh (½ · z) + ½` entry by entry. -/
theorem gate_apply (Z : FVec Ideal S128x8192 .f32) (j : S128x8192.Idx) :
    addf (mulf (broadcast S128x8192 (Scalar.ofBits .f32 0x3F000000#32))
        (tanh (mulf (broadcast S128x8192 (Scalar.ofBits .f32 0x3F000000#32)) Z)))
      (broadcast S128x8192 (Scalar.ofBits .f32 0x3F000000#32)) j = gateK (Z j) := rfl

/-- The kernel's body at row `a`, column `k`: the input entry plus the gate of the column's logit. -/
theorem body_apply (x0 : Vec Ideal S128x8192 .f32) (x1 x2 : Vec Ideal S1x8192 .bf16) (x3 : Vec Ideal S8192x128 .bf16)
    (x4 : Vec Ideal S1x128 .f32) (x5 : Vec Ideal S128x8192 .bf16) (x6 : Vec Ideal S1x8192 .f32) (a : Fin 128) (k : Fin 8192) :
    k0_pay1 x0 x1 x2 x3 x4 x5 x6 (ix2 a k)
      = x0 (ix2 a k) + gateK ((∑ r : Fin 128,
            max ((∑ k' : Fin 8192, max (x0 (ix2 a k') * x1 (ix2 (0 : Fin 1) k') + x2 (ix2 (0 : Fin 1) k')) 0 * x3 (ix2 k' r))
                  + x4 (ix2 (0 : Fin 1) r)) 0 * x5 (ix2 r k))
          + x6 (ix2 (0 : Fin 1) k)) := by
  unfold k0_pay1
  simp only [shapeCast_self]
  rw [addf_apply, gate_apply, logit_apply]
  simp only [hidden_apply, act_apply]

end Cert.KernelIdeal.Body

end
-- ==== Proof.KBlocks.lean ====
/-
  From the 64 written-back blocks to the whole output array.

  The launch runs the body at 64 grid points. Point `t` stages rows `128 t … 128 t + 127` of the flattened input and
  the whole of every other operand, and writes the body's value back as rows `128 t … 128 t + 127` of the output.
  Entry `(a, k)` of the body's value at point `t` depends on row `128 t + a` of the input only (through the two dense
  layers, on all of that row's columns), so it is entry `(128 t + a, k)` of one function of the whole arrays — the
  specification's flattened result. The 64 row blocks tile the 8192 rows (row `r` belongs to point `r / 128`), so
  after the run the output array is that function.
-/
import proofs.«172977_j59717225284138_2_alg».proof.Proof.Gen.KernelIdeal.Frame
import proofs.«172977_j59717225284138_2_alg».proof.Proof.Spec
import proofs.«172977_j59717225284138_2_alg».proof.Proof.KEntry
import proofs.«172977_j59717225284138_2_alg».proof.Proof.KPayload
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.ChannelGate
open Idealize.ShloMosaic.Pipeline (Dat)

variable (m : (ℓ : Loc nD τ sig) → Buf (Elt Ideal) ℓ) (c : Dev nD)

/-- The flattened result, as the specification writes it, of the program's arguments. -/
abbrev flatOf : Flat := outFlat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem hz : (![0, 0] : Fin 2 → Nat) = fun _ => 0 := funext fun a => by fin_cases a <;> rfl

/-- The index maps over the 64 grid points: the input and the output step one block of 128 rows per point; every other
    operand stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 64 := by
  have h : t.val < grid0.N := t.isLt
  rw [N_0] at h
  exact h

/-- Block `t` of the flattened input is rows `128 t … 128 t + 127`. -/
theorem blk0_apply (t : Fin cfg0.N) (a : Fin 128) (k : Fin 8192) (b : Fin 8192) (hb : b.val = 128 * t.val + a.val) :
    (iblk m c 0 t : Vec Ideal S128x8192 .f32) (ix2 a k) = (V m c main_v28 : S8192x8192.Idx → EReal) (ix2 b k) := by
  have e := idx_facts t
  unfold iblk
  rw [View.read_apply]
  show V m c main_v28 _ = V m c main_v28 _
  congr 1
  funext x
  apply Fin.ext
  match x with
  | ⟨0, _⟩ => show win0_0.index t (0 : Fin 2) * 128 + 1 * a.val = b.val; rw [e.1, hb]; omega
  | ⟨1, _⟩ => show win0_0.index t (1 : Fin 2) * 8192 + 1 * k.val = k.val; rw [e.2.1]; omega

/-! Every other operand's block is its whole array. -/

theorem blk1_apply (t : Fin cfg0.N) (a : Fin 1) (k : Fin 8192) :
    (iblk m c 1 t : Vec Ideal S1x8192 .bf16) (ix2 a k) = (V m c main_v9 : S1x8192.Idx → EReal) (ix2 a k) := by
  have e := idx_facts t
  unfold iblk
  rw [View.read_apply]
  show V m c main_v9 _ = V m c main_v9 _
  congr 1
  funext x
  apply Fin.ext
  match x with
  | ⟨0, _⟩ => show win0_1.index t (0 : Fin 2) * 1 + 1 * a.val = a.val; rw [e.2.2.1]; omega
  | ⟨1, _⟩ => show win0_1.index t (1 : Fin 2) * 8192 + 1 * k.val = k.val; rw [e.2.2.2.1]; omega

theorem blk2_apply (t : Fin cfg0.N) (a : Fin 1) (k : Fin 8192) :
    (iblk m c 2 t : Vec Ideal S1x8192 .bf16) (ix2 a k) = (V m c main_v13 : S1x8192.Idx → EReal) (ix2 a k) := by
  have e := idx_facts t
  unfold iblk
  rw [View.read_apply]
  show V m c main_v13 _ = V m c main_v13 _
  congr 1
  funext x
  apply Fin.ext
  match x with
  | ⟨0, _⟩ => show win0_2.index t (0 : Fin 2) * 1 + 1 * a.val = a.val; rw [e.2.2.2.2.1]; omega
  | ⟨1, _⟩ => show win0_2.index t (1 : Fin 2) * 8192 + 1 * k.val = k.val; rw [e.2.2.2.2.2.1]; omega

theorem blk3_apply (t : Fin cfg0.N) (a : Fin 8192) (k : Fin 128) :
    (iblk m c 3 t : Vec Ideal S8192x128 .bf16) (ix2 a k) = (V m c main_v19 : S8192x128.Idx → EReal) (ix2 a k) := by
  have e := idx_facts t
  unfold iblk
  rw [View.read_apply]
  show V m c main_v19 _ = V m c main_v19 _
  congr 1
  funext x
  apply Fin.ext
  match x with
  | ⟨0, _⟩ => show win0_3.index t (0 : Fin 2) * 8192 + 1 * a.val = a.val; rw [e.2.2.2.2.2.2.1]; omega
  | ⟨1, _⟩ => show win0_3.index t (1 : Fin 2) * 128 + 1 * k.val = k.val; rw [e.2.2.2.2.2.2.2.1]; omega

theorem blk4_apply (t : Fin cfg0.N) (a : Fin 1) (k : Fin 128) :
    (iblk m c 4 t : Vec Ideal S1x128 .f32) (ix2 a k) = (V m c main_v24 : S1x128.Idx → EReal) (ix2 a k) := by
  have e := idx_facts t
  unfold iblk
  rw [View.read_apply]
  show V m c main_v24 _ = V m c main_v24 _
  congr 1
  funext x
  apply Fin.ext
  match x with
  | ⟨0, _⟩ => show win0_4.index t (0 : Fin 2) * 1 + 1 * a.val = a.val; rw [e.2.2.2.2.2.2.2.2.1]; omega
  | ⟨1, _⟩ => show win0_4.index t (1 : Fin 2) * 128 + 1 * k.val = k.val; rw [e.2.2.2.2.2.2.2.2.2.1]; omega

theorem blk5_apply (t : Fin cfg0.N) (a : Fin 128) (k : Fin 8192) :
    (iblk m c 5 t : Vec Ideal S128x8192 .bf16) (ix2 a k) = (V m c main_v23 : S128x8192.Idx → EReal) (ix2 a k) := by
  have e := idx_facts t
  unfold iblk
  rw [View.read_apply]
  show V m c main_v23 _ = V m c main_v23 _
  congr 1
  funext x
  apply Fin.ext
  match x with
  | ⟨0, _⟩ => show win0_5.index t (0 : Fin 2) * 128 + 1 * a.val = a.val; rw [e.2.2.2.2.2.2.2.2.2.2.1]; omega
  | ⟨1, _⟩ => show win0_5.index t (1 : Fin 2) * 8192 + 1 * k.val = k.val; rw [e.2.2.2.2.2.2.2.2.2.2.2.1]; omega

theorem blk6_apply (t : Fin cfg0.N) (a : Fin 1) (k : Fin 8192) :
    (iblk m c 6 t : Vec Ideal S1x8192 .f32) (ix2 a k) = (V m c main_v27 : S1x8192.Idx → EReal) (ix2 a k) := by
  have e := idx_facts t
  unfold iblk
  rw [View.read_apply]
  show V m c main_v27 _ = V m c main_v27 _
  congr 1
  funext x
  apply Fin.ext
  match x with
  | ⟨0, _⟩ => show win0_6.index t (0 : Fin 2) * 1 + 1 * a.val = a.val; rw [e.2.2.2.2.2.2.2.2.2.2.2.2.1]; omega
  | ⟨1, _⟩ => show win0_6.index t (1 : Fin 2) * 8192 + 1 * k.val = k.val; rw [e.2.2.2.2.2.2.2.2.2.2.2.2.2.1]; omega

/-- What point `t` writes back is block `t` of the specification's flattened result: the body's value at row `a`,
    column `k` of the block reads row `128 t + a` of the input, and the other operands whole. -/
theorem flushed_eq (t : Fin cfg0.N) :
    (dats m 0 c).flushed 7 t = ((cfg0.win 7).blk t).view.read (Elt Ideal) (flatOf m c) := by
  show (cfg0.win 7).cut (grid0.coords t) ((dats m 0 c).after 7 t) = _
  rw [after0_7]
  unfold out0_7
  rw [View.canon_unit_zero hz]
  simp only [View.ld_unit_zero (S := S128x8192) hz, View.ld_unit_zero (S := S1x8192) hz,
    View.ld_unit_zero (S := S8192x128) hz, View.ld_unit_zero (S := S1x128) hz]
  funext y
  have ht := point_lt t
  have e := idx_facts t
  have hy0 : (y 0).val < 128 := (y 0).isLt
  have hy1 : (y 1).val < 8192 := (y 1).isLt
  obtain ⟨a, k, rfl⟩ : ∃ (a : Fin 128) (k : Fin 8192), y = ix2 a k := ⟨⟨(y 0).val, hy0⟩, ⟨(y 1).val, hy1⟩, eq_ix2 y⟩
  have hemb : ((cfg0.win 7).blk t).view.emb (ix2 a k) = ix2 (⟨128 * t.val + a.val, by omega⟩ : Fin 8192) k := by
    funext x
    apply Fin.ext
    match x with
    | ⟨0, _⟩ => show win0_7.index t (0 : Fin 2) * 128 + 1 * a.val = 128 * t.val + a.val; rw [e.2.2.2.2.2.2.2.2.2.2.2.2.2.2.1]; omega
    | ⟨1, _⟩ => show win0_7.index t (1 : Fin 2) * 8192 + 1 * k.val = k.val; rw [e.2.2.2.2.2.2.2.2.2.2.2.2.2.2.2]; omega
  show k0_pay1 (iblk m c 0 t) (iblk m c 1 t) (iblk m c 2 t) (iblk m c 3 t) (iblk m c 4 t) (iblk m c 5 t) (iblk m c 6 t) (ix2 a k)
    = flatOf m c (((cfg0.win 7).blk t).view.emb (ix2 a k))
  rw [hemb]
  refine (Body.body_apply _ _ _ _ _ _ _ a k).trans ?_
  have h0 : ∀ k' : Fin 8192, (iblk m c 0 t : Vec Ideal S128x8192 .f32) (ix2 a k')
      = (m ((c : Thread nD τ).loc main_arg0) : S8192x2048x2x2.Idx → EReal)
          (ix4 (⟨128 * t.val + a.val, by omega⟩ : Fin 8192) (chan k') (posR k') (posC k')) :=
    fun k' => (blk0_apply m c t a k' _ rfl).trans (Entry.x_apply m c _ k')
  have h1 := fun k' : Fin 8192 => (blk1_apply m c t 0 k').trans (Entry.scale_apply m c 0 k')
  have h2 := fun k' : Fin 8192 => (blk2_apply m c t 0 k').trans (Entry.shift_apply m c 0 k')
  have h3 := fun (k' : Fin 8192) (r : Fin 128) => (blk3_apply m c t k' r).trans (Entry.w1_apply m c k' r)
  have h4 := fun r : Fin 128 => (blk4_apply m c t 0 r).trans (Entry.b1_apply m c 0 r)
  have h5 := fun (r : Fin 128) (k' : Fin 8192) => (blk5_apply m c t r k').trans (Entry.w2_apply m c r k')
  have h6 := fun k' : Fin 8192 => (blk6_apply m c t 0 k').trans (Entry.b2_apply m c 0 k')
  simp only [h0, h1, h2, h3, h4, h5, h6]
  rfl

/-- An index of the flattened array lies in point `t`'s block iff its row is among rows `128 t … 128 t + 127`. -/
theorem mem_blk (t : Fin cfg0.N) (i : S8192x8192.Idx) :
    i ∈ ((cfg0.win 7).blk t).view.set ↔ ∀ a : Fin 2, win0_7.index t a * S128x8192.size a ≤ (i a).val
      ∧ (i a).val < win0_7.index t a * S128x8192.size a + S128x8192.size a := by
  show i ∈ ((View.whole main_v29).slice (win0_7.rect t)).set ↔ _
  rw [View.set_slice_whole, Rect.mem_set_unit]
  exact Iff.rfl

/-- The 64 blocks tile the array: row `r` is written back by point `r / 128`. -/
theorem cover (i : S8192x8192.Idx) :
    ∃ t : Fin cfg0.N, (cfg0.win 7).flush t = true ∧ i ∈ ((cfg0.win 7).blk t).view.set := by
  have hi0 : (i 0).val < 8192 := (i 0).isLt
  have hi1 : (i 1).val < 8192 := (i 1).isLt
  have hN : (i 0).val / 128 < grid0.N := by rw [N_0]; omega
  have e := idx_facts ⟨(i 0).val / 128, hN⟩
  refine ⟨⟨(i 0).val / 128, hN⟩, flush0_7 _, ?_⟩
  rw [mem_blk]
  intro a
  match a with
  | ⟨0, _⟩ =>
    show win0_7.index ⟨(i 0).val / 128, hN⟩ (0 : Fin 2) * 128 ≤ (i 0).val
      ∧ (i 0).val < win0_7.index ⟨(i 0).val / 128, hN⟩ (0 : Fin 2) * 128 + 128
    rw [e.2.2.2.2.2.2.2.2.2.2.2.2.2.2.1]
    show (i 0).val / 128 * 128 ≤ (i 0).val ∧ (i 0).val < (i 0).val / 128 * 128 + 128
    omega
  | ⟨1, _⟩ =>
    show win0_7.index ⟨(i 0).val / 128, hN⟩ (1 : Fin 2) * 8192 ≤ (i 1).val
      ∧ (i 1).val < win0_7.index ⟨(i 0).val / 128, hN⟩ (1 : Fin 2) * 8192 + 8192
    rw [e.2.2.2.2.2.2.2.2.2.2.2.2.2.2.2]
    omega

/-- So after the run the output array holds the specification's flattened result. -/
theorem final : (dats m 0 c).arrAt 7 cfg0.N = flatOf m c :=
  (dats m 0 c).arrAt_eq_of_cover 7 (flatOf m c) (fun t _ => flushed_eq m c t) (cover)

end Cert.KernelIdeal.Blocks

end
-- ==== Proof.KRun.lean ====
/-
  What the idealized kernel program returns, given what its one region leaves in the flattened array.

  The program ends by reading the flattened [8192, 8192] array back as [8192, 2048, 2, 2]: position (p, q) of
  channel c in batch row b is column 4c + 2p + q of row b. So if the flattened array ends as the second
  arrangement's flattened result of the program's arguments, the program's result is that arrangement read back
  through the flattening, and the nine argument arrays end as they began.
-/
import proofs.«172977_j59717225284138_2_alg».proof.Proof.Gen.KernelIdeal.Frame
import proofs.«172977_j59717225284138_2_alg».proof.Proof.Spec
import Idealize.ShloMosaic.Lib.StableHlo.Run
import Idealize.ShloMosaic.Lib.Pipeline.Value
import Idealize.ShloMosaic.Lib.ValueIdx

noncomputable section

namespace Cert.KernelIdeal.Result

open Cert.KernelIdeal Cert.KernelIdeal.Gen Idealize.ShloMosaic Idealize.ShloMosaic.TcCoe Idealize.SL.Sem
  Idealize.ShloMosaic.StableHlo Idealize.ShloMosaic.ValueIdx Cert.ChannelGate

/-- Reading the [8192, 8192] array back as [8192, 2048, 2, 2]: both indices have the same row-major position,
    `8192·b + (4c + 2p + q) = ((2048·b + c)·2 + p)·2 + q`. -/
theorem unflatten_apply (A : S8192x8192.Idx → EReal) (b : Fin 8192) (c : Fin 2048) (p q : Fin 2) :
    shapeCast S8192x2048x2x2 A shapeCasts_S8192x8192_S8192x2048x2x2 (ix4 b c p q) = A (ix2 b (col c p q)) := by
  apply shapeCast_apply
  rw [Shape.rowMajor_val_two, Shape.rowMajor_val_four]
  show b.val * 8192 + (4 * c.val + 2 * p.val + q.val) = ((b.val * 2048 + c.val) * 2 + p.val) * 2 + q.val
  omega

variable (m : (ℓ : Loc nD τ sig) → Buf (Elt Ideal) ℓ) (ρ : Dev nD → PrngReg)

/-- The second arrangement's flattened result of the program's arguments on core `c`. -/
abbrev flatOf (c : Dev nD) : Flat :=
  outFlat (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8))

/-- The second arrangement's result of the program's arguments on core `c`. -/
abbrev resultOf (c : Dev nD) : Act :=
  outK (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8))

/-- The program's result is the flattened array read back through the flattening: the one operation after the region
    re-reads window 7's array under the four-axis shape, and position `(b, c, p, q)` lands on column
    `4c + 2p + q` of row `b`. -/
theorem result_of_final (c : Dev nD) (hfinal : (dats m 0 c).arrAt 7 cfg0.N = flatOf m c) :
    Pipeline.afterTail₀ cfgs (dats m) 0 (V0 m) [hostOps1] c main_v30 = resultOf m c := by
  unfold Pipeline.afterTail₀
  show StableHlo.after hostOps1 _ (Proc.devRef .tc main_v30) = _
  after_results
  have hw : Pipeline.withArrays spec0 c (V0 m c) (fun w => (dats m 0 c).arrAt w cfg0.N)
      (Proc.devRef .tc main_v29) = flatOf m c :=
    (Pipeline.withArrays_arr spec0 launch0.win.arr_inj c _ _ 7).trans hfinal
  funext i
  obtain ⟨b, ch, p, q, rfl⟩ : ∃ b ch p q, i = ix4 b ch p q := ⟨i 0, i 1, i 2, i 3, eq_ix4 i⟩
  show shapeCast S8192x2048x2x2
      (Pipeline.withArrays spec0 c (V0 m c) (fun w => (dats m 0 c).arrAt w cfg0.N) (Proc.devRef .tc main_v29))
      shapeCasts_S8192x8192_S8192x2048x2x2 (ix4 b ch p q) = _
  rw [unflatten_apply]
  exact congrFun hw _

/-- The whole program, given what the region leaves in the flattened array on every core: every weakly fair
    execution ends, with the result the second arrangement of the arguments and the nine arguments unchanged. -/
theorem run_of_final (hfinal : ∀ c, (dats m 0 c).arrAt 7 cfg0.N = flatOf m c) :
    θ_run defs (onTc (τ := τ) (main (F := Ideal))) ⟨m, fun _ => 0, ρ⟩ (fun r => ∀ c : Dev nD,
      r.2.mem ((c.tc : Thread nD τ).loc main_v30) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v30 (Pipeline.mem_restRefs_of main_v30 (by decide) (by decide))).trans
        (result_of_final m c (hfinal c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Result

end
-- ==== Proof.lean ====
/-
  The kernel against its reference, over the extended reals.

  Both programs take an activation array [8192, 2048, 2, 2], normalise it per channel, rectify it, average each
  channel's four positions, pass the averages of a batch row through two small dense layers (2048 → 128 → 2048) and
  add the logistic value of each channel's logit back onto the channel's four positions.

  The reference does this on the four-axis array and divides the pooled sum by four. The kernel flattens the array to
  [8192, 8192], repeats the per-channel operands four times along the flattened axis, folds the division by four into
  the first layer's weights, runs the two layers on 64 row blocks of 128 rows, and writes the logistic function as
  `½ · tanh (½ · z) + ½`. Three facts join the two sides, each valid on every extended real (the normalisation's scale
  may be infinite even for finite inputs, so nothing here uses finiteness): a sum over the 8192 flattened columns is
  the sum over channels of the sum over positions; a sum of non-negative terms distributes over a product; and
  `½ · tanh (½ · z) + ½ = 1 / (1 + exp (−z))`, also at `±∞`.

  The modules: `Spec` (the two arrangements written down), `Algebra` (they are one function), `RefSide` (the
  reference's run is the first arrangement), `KEntry` (what the launch finds in each operand), `KProducts` and
  `KPayload` (the body at an index), `KBlocks` (the output array after the run), `KRun` (the reshape after the
  launch and the run's post). The three frames are the generated ones; the idealisation rewrote nothing.
-/
import proofs.«172977_j59717225284138_2_alg».proof.Defs
import proofs.«172977_j59717225284138_2_alg».proof.Proof.Gen.Kernel
import proofs.«172977_j59717225284138_2_alg».proof.Proof.Gen.Kernel.Skeleton
import proofs.«172977_j59717225284138_2_alg».proof.Proof.Gen.Kernel.Launch
import proofs.«172977_j59717225284138_2_alg».proof.Proof.Gen.Kernel.Points
import proofs.«172977_j59717225284138_2_alg».proof.Proof.Gen.Kernel.Frame
import proofs.«172977_j59717225284138_2_alg».proof.Proof.Gen.KernelIdeal
import proofs.«172977_j59717225284138_2_alg».proof.Proof.Gen.KernelIdeal.Skeleton
import proofs.«172977_j59717225284138_2_alg».proof.Proof.Gen.KernelIdeal.Launch
import proofs.«172977_j59717225284138_2_alg».proof.Proof.Gen.KernelIdeal.Points
import proofs.«172977_j59717225284138_2_alg».proof.Proof.Gen.KernelIdeal.Frame
import proofs.«172977_j59717225284138_2_alg».proof.Proof.Gen.ReferenceIdeal
import proofs.«172977_j59717225284138_2_alg».proof.Proof.Gen.ReferenceIdeal.Run
import proofs.«172977_j59717225284138_2_alg».proof.Proof.Gen.ReferenceIdeal.Read
import proofs.«172977_j59717225284138_2_alg».proof.Proof.Gen.Pre_finite_inputs
import proofs.«172977_j59717225284138_2_alg».proof.Proof.Spec
import proofs.«172977_j59717225284138_2_alg».proof.Proof.Algebra
import proofs.«172977_j59717225284138_2_alg».proof.Proof.RefSide
import proofs.«172977_j59717225284138_2_alg».proof.Proof.KBlocks
import proofs.«172977_j59717225284138_2_alg».proof.Proof.KRun
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a straight line of host operations: its run, with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both programs end with the same result: the kernel's is the second
    arrangement of the specification at its arguments, the reference's the first at its own, and the two are one
    function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.resultOf m c,
    Cert.KernelIdeal.Result.run_of_final m ρ (fun c => Cert.KernelIdeal.Blocks.final m c), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v33_eq (F := Ideal) _ _ _ _ _ _ _ _ _).trans ?_
  refine (Cert.ChannelGate.RefSide.ref_eq _ _ _ _ _ _ _ _ _).trans ?_
  obtain ⟨a0, a1, a2, a3, a4, a5, a6, a7, a8⟩ := hagree c
  rw [a0, a1, a2, a3, a4, a5, a6, a7, a8]
  exact (Cert.ChannelGate.outK_eq_outR _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
